-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x2048x2048 .f32) (main_arg1 : FVec F S2048x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x2048x2048 : Shape := ⟨3, ![4, 2048, 2048]⟩
abbrev S2048x2048 : Shape := ⟨2, ![2048, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S4x2048x2048, .f32⟩
  | .local _ .vmem, ⟨0, _⟩ => ⟨S4x256x2048, .f32⟩
  | .local _ .vmem, ⟨1, _⟩ => ⟨S4x256x2048, .f32⟩
  | .local _ .vmem, ⟨2, _⟩ => ⟨S256x2048, .f32⟩
  | .local _ .vmem, ⟨3, _⟩ => ⟨S256x2048, .f32⟩
  | .local _ .vmem, ⟨4, _⟩ => ⟨S4x256x2048, .f32⟩
  | .local _ .vmem, ⟨5, _⟩ => ⟨S4x256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x256x2048_S4x256x2048_0_0_0 : ∀ a, (![0, 0, 0] : Fin 3 → Nat) a + S4x256x2048.size a ≤ S4x256x2048.size a
  h_S4x256x2048 : 0 < S4x256x2048.numel
  inb_S256x2048_S256x2048_0_0 : ∀ a, (![0, 0] : Fin 2 → Nat) a + S256x2048.size a ≤ S256x2048.size a
  h_S256x2048 : 0 < S256x2048.numel
  shapeCasts_S256x2048_S1x256x2048 : S256x2048.ShapeCasts S1x256x2048
  broadcasts_S1x256x2048_S4x256x2048 : S1x256x2048.Broadcasts S4x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x2048x2048.size a
  hwx0_0 : ∀ i : grid0.Coords, EltTy.bits .f32 = 32 ∨ (Rect.block (s := S4x2048x2048) S4x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S4x2048x2048.size a
  hwx0_2 : ∀ i : grid0.Coords, EltTy.bits .f32 = 32 ∨ (Rect.block (s := S4x2048x2048) S4x256x2048.size (cc0_transform_2 i) (hinb0_2 i)).WholeWords (EltTy.packing .f32)

variable [Facts₀]

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x2048 : Shape := ⟨3, ![1, 2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S1x2048x2048, .f32⟩
  | .hbm, ⟨27, _⟩ => ⟨S4x2048x2048, .f32⟩
  | .hbm, ⟨28, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x2048_0 : S2048.BroadcastsInDim S2048x2048 (![0] : Fin 1 → Fin S2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  gather_S2048x2048_S2048x1_S2048x2048_1_0_n_n_0_1_12048_wf : GatherDims.WF S2048x2048 S2048x1 S2048x2048 [1] [0] [] [0] [] 1 ![1, 2048]

variable [Facts₀]

def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf

class Facts : Prop extends Facts₀ where

variable [Facts]
-- ==== Proof.Spec.lean ====
/-
  The function both programs compute, stated once over the argument arrays: a batch `x` of four
  2048 × 2048 matrices and one 2048 × 2048 table `pe` of positional encodings. Entry (b, s, d) of
  the result is `x[b, s, d] + pe[s, d]`: the table's row for position `s` is added to every
  member of the batch. Nothing here depends on the float instance; at the exact instance the sum
  is the sum of extended reals.
-/
import Idealize.ShloMosaic.PureOps.Ideal
import Idealize.ShloMosaic.Lib.ValueIdx

noncomputable section

namespace Cert.PosEnc

open Idealize.ShloMosaic

variable {F : FTy → Type} [FloatOps F]

/-- The batch's shape: 4 members, 2048 positions, 2048 features. -/
abbrev Batch : Shape := ⟨3, ![4, 2048, 2048]⟩
/-- The table's shape: 2048 positions, 2048 features. -/
abbrev Table : Shape := ⟨2, ![2048, 2048]⟩

/-- The table entry paired with batch entry (b, s, d): position `s`, feature `d`. -/
abbrev rowOf (i : Batch.Idx) : Table.Idx := fun a => match a with
  | ⟨0, _⟩ => ⟨(i 1).val, by have h : (i 1).val < 2048 := (i 1).isLt; exact h⟩
  | ⟨1, _⟩ => ⟨(i 2).val, by have h : (i 2).val < 2048 := (i 2).isLt; exact h⟩

/-- `x[b, s, d] + pe[s, d]` at every entry of the batch. -/
def addRows (x : Batch.Idx → Elt F .f32) (pe : Table.Idx → Elt F .f32) : Batch.Idx → Elt F .f32 :=
  fun i => FloatOps.addf (x i) (pe (rowOf i))

theorem addRows_apply (x : Batch.Idx → Elt F .f32) (pe : Table.Idx → Elt F .f32) (i : Batch.Idx) :
    addRows x pe i = FloatOps.addf (x i) (pe (rowOf i)) := rfl

end Cert.PosEnc

end
-- ==== Proof.KernelValue.lean ====
/-
  The kernel's result array as ONE function of its arguments. The grid has eight points; point
  `t` is handed rows 256·t … 256·t + 255 of every batch member (a 4 × 256 × 2048 block of `x`) and the
  same rows of the table (a 256 × 2048 block of `pe`), adds the table block to each of the four
  members, and writes the 4 × 256 × 2048 block back to the same rows of the result. So the block a
  point writes is the restriction of `x[b, s, d] + pe[s, d]` to its rows, and since the eight row
  ranges tile 0 … 2047 the whole result array is that function.
-/
import proofs.«102697_g44573170598537_cont_8to1_c_262_11_alg».proof.Proof.Gen.KernelIdeal.Value
import proofs.«102697_g44573170598537_cont_8to1_c_262_11_alg».proof.Proof.Spec

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.PosEnc

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the output block, from its two input blocks: entry (b, r, d) of the block
    is `x0[b, r, d] + x1[r, d]` (the body loads both blocks whole, so the loads are the blocks). -/
theorem body_block (x0 : Vec F S4x256x2048 .f32) (x1 : Vec F S256x2048 .f32) (y : S4x256x2048.Idx) :
    out0_2 x0 x1 y = FloatOps.addf (x0 (Value.ix2_0 y)) (x1 (Value.ix2_1 y)) := by
  unfold out0_2
  simp only [View.ld_unit_zero (S := S4x256x2048) zero3, View.ld_unit_zero (S := S256x2048) zero2]
  exact Value.canon2_eq x0 x1 y

/-- Where the windows sit at grid point `t`, decided over the eight points: the batch window and the
    output window at rows-block `t` of every member, the table window at rows-block `t`. -/
theorem window_places : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- Every rows-block 0 … 7 is some point's. -/
theorem point_of_rows : ∀ q : Fin 8, ∃ t : Fin cfg0.N, t.val = q.val :=
  (by decide +kernel : ∀ q : Fin 8, ∃ t : Fin grid0.N, t.val = q.val)

/-- WHAT POINT `t` WRITES BACK is block `t` of `x[b, s, d] + pe[s, d]`. -/
theorem flushed_eq (c : Dev nD) (t : Fin cfg0.N) :
    (dats m 0 c).flushed 2 t = ((cfg0.win 2).blk t).view.read (Elt F) (addRows (V m c main_arg0) (V m c main_arg1)) := by
  show (cfg0.win 2).cut (grid0.coords t) ((dats m 0 c).after 2 t) = _
  rw [after0_2]
  funext j
  refine (body_block (iblk m c 0 t) (iblk m c 1 t) j).trans ?_
  obtain ⟨a0, a1, a2, b0, b1, o0, o1, o2⟩ := window_places t
  have hj0 : (j 0).val < 4 := (j 0).isLt
  have hj1 : (j 1).val < 256 := (j 1).isLt
  have hj2 : (j 2).val < 2048 := (j 2).isLt
  show FloatOps.addf (V m c main_arg0 (((cfg0.win 0).blk t).view.emb (Value.ix2_0 j))) (V m c main_arg1 (((cfg0.win 1).blk t).view.emb (Value.ix2_1 j)))
    = FloatOps.addf (V m c main_arg0 (((cfg0.win 2).blk t).view.emb j)) (V m c main_arg1 (rowOf (((cfg0.win 2).blk t).view.emb j)))
  have h0 : ((cfg0.win 0).blk t).view.emb (Value.ix2_0 j) = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 2048 + 1 * (j 2).val = win0_2.index t (2 : Fin 3) * 2048 + 1 * (j 2).val; omega
  have h1 : ((cfg0.win 1).blk t).view.emb (Value.ix2_1 j) = rowOf (((cfg0.win 2).blk t).view.emb j) := by
    funext a; apply Fin.ext
    match a with
    | ⟨0, _⟩ => show win0_1.index t (0 : Fin 2) * 256 + 1 * (j 1).val = win0_2.index t (1 : Fin 3) * 256 + 1 * (j 1).val; omega
    | ⟨1, _⟩ => show win0_1.index t (1 : Fin 2) * 2048 + 1 * (j 2).val = win0_2.index t (2 : Fin 3) * 2048 + 1 * (j 2).val; omega
  rw [h0, h1]

/-- An entry of the result is in point `t`'s block iff each coordinate is in the block's range. -/
theorem mem_block (t : Fin cfg0.N) (i : S4x2048x2048.Idx) :
    i ∈ ((cfg0.win 2).blk t).view.set ↔ ∀ a : Fin 3, win0_2.index t a * S4x256x2048.size a ≤ (i a).val ∧ (i a).val < win0_2.index t a * S4x256x2048.size a + S4x256x2048.size a := by
  show i ∈ ((View.whole main_v0).slice (win0_2.rect t)).set ↔ _
  rw [View.set_slice_whole, Rect.mem_set_unit]
  exact Iff.rfl

/-- Every entry (b, s, d) of the result is written by some point: the one whose rows hold `s`, point s / 256. -/
theorem covered (i : S4x2048x2048.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 2048 := (i 2).isLt
  obtain ⟨t, ht⟩ := point_of_rows ⟨(i 1).val / 256, by omega⟩
  have ht' : t.val = (i 1).val / 256 := ht
  obtain ⟨a0, a1, a2, b0, b1, o0, o1, o2⟩ := window_places t
  refine ⟨t, flush0_2 t, ?_⟩
  rw [mem_block]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- THE RESULT ARRAY after the run is `x[b, s, d] + pe[s, d]` of the argument arrays. -/
theorem final (c : Dev nD) :
    (dats m 0 c).arrAt 2 cfg0.N = addRows (m ((c : Thread nD τ).loc main_arg0)) (m ((c : Thread nD τ).loc main_arg1)) :=
  (dats m 0 c).arrAt_eq_of_cover 2 (addRows (V m c main_arg0) (V m c main_arg1)) (fun t _ => flushed_eq m c t) covered

/-- Every weakly fair execution of the kernel's program terminates with the result array at
    `x[b, s, d] + pe[s, d]` of the argument arrays, which end unchanged. -/
theorem run : θ_run defs (onTc (τ := τ) (main (F := F))) ⟨m, fun _ => 0, ρ⟩ fun r => ∀ c : Dev nD,
      r.2.mem ((c : Thread nD τ).loc main_v0) = addRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefOps.lean ====
/-
  The reference program as a straight line. Its @main is 27 host operations once the two functions jax
  outlined are put back at their calls: the positions 0 … 2047 (an iota); the lookup
  `take(pe, positions, axis = 0)` — each position wrapped by 2048 when negative, a mask saying the wrapped
  position lies in 0 … 2047, the rows of `pe` gathered at the positions, and the gathered rows kept where
  the mask holds, a NaN pattern elsewhere —; the looked-up table copied to every batch member; the sum
  with `x`. The stages are named here so that the result can be read one stage at a time.
-/
import proofs.«102697_g44573170598537_cont_8to1_c_262_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The positions 0 … 2047 as 32-bit words. -/
abbrev rowNumbers : IVec S2048 32 := iotaInDim S2048 32 0

/-- The positions as the gather receives them, one per row of a 2048 × 1 column: a position below zero is
    moved up by 2048, any other is kept. -/
def positions : IVec S2048x1 32 :=
  broadcastInDim S2048x1 ![0] bcast_S2048_S2048x1_0
    (select (cmpi .slt rowNumbers (broadcastInDim S2048 ![] bcast_S_S2048 (constantI S_ 32 0#32)))
      (addi rowNumbers (broadcastInDim S2048 ![] bcast_S_S2048 (constantI S_ 32 2048#32)))
      rowNumbers)

/-- Per position, whether it lies in 0 … 2047: the conjunction, over the column's one entry, of the two
    comparisons. -/
def inRange : IVec S2048 1 :=
  Host.reduce IntOp.andi
    (andi (cmpi .sge positions (broadcastInDim S2048x1 ![] bcast_S_S2048x1 (constantI S_ 32 0#32)))
      (cmpi .sle positions (broadcastInDim S2048x1 ![0, 1] bcast_S1x1_S2048x1_0_1
        (broadcastInDim S1x1 ![1] bcast_S1_S1x1_1 (constantI S1 32 2047#32)))))
    (constantI S_ 1 1#1) reducesTo_S2048x1_S2048_d1 h_S_

/-- The lookup's result: row `s` is the table's row at position `s` where that position is in range, a
    NaN pattern elsewhere. -/
def lookup (pe : FVec F S2048x2048 .f32) : FVec F S2048x2048 .f32 :=
  select (broadcastInDim S2048x2048 ![0] bcast_S2048_S2048x2048_0 inRange)
    (Host.gather gather_S2048x2048_S2048x1_S2048x2048_1_0_n_n_0_1_12048 pe positions)
    (broadcastInDim S2048x2048 ![] bcast_S_S2048x2048 (constant S_ .f32 0x7FC00000#32))

/-- The reference's result: the looked-up table, copied to each of the four batch members, added to `x`. -/
def result (x : FVec F S4x2048x2048 .f32) (pe : FVec F S2048x2048 .f32) : FVec F S4x2048x2048 .f32 :=
  addf x (broadcastInDim S4x2048x2048 ![0, 1, 2] bcast_S1x2048x2048_S4x2048x2048_0_1_2
    (broadcastInDim S1x2048x2048 ![1, 2] bcast_S2048x2048_S1x2048x2048_1_2 (lookup pe)))

/-! ## The run -/

/-- @main's 27 operations, in order, the outlined functions' operations at their calls. -/
abbrev ops : List (HloOp τ sig (Elt F)) :=
  [ nullary main_v0 (iotaInDim S2048 32 0),
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 2048#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg1) main_call0.v5 main_call0.v13 (fun x i => Host.gather gather_S2048x2048_S2048x1_S2048x2048_1_0_n_n_0_1_12048 x i),
    TRef.unary main_call0.v12 main_call0.v14 (broadcastInDim S2048x2048 ![0] bcast_S2048_S2048x2048_0),
    TRef.nullary main_call0.cst (constant S_ .f32 0x7FC00000#32),
    TRef.unary main_call0.cst main_call0.v15 (broadcastInDim S2048x2048 ![] bcast_S_S2048x2048),
    TRef.ternary main_call0.v14 main_call0.v13 main_call0.v15 main_call0.v16 select,
    unary main_v1 main_v2 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v2 main_v3 (broadcastInDim S4x2048x2048 ![0, 1, 2] bcast_S1x2048x2048_S4x2048x2048_0_1_2 : (⟨S1x2048x2048, .f32⟩ : BufTy).Contents (Elt F) → (⟨S4x2048x2048, .f32⟩ : BufTy).Contents (Elt F)),
    binary main_arg0 main_v3 main_v4 (addf : (⟨S4x2048x2048, .f32⟩ : BufTy).Contents (Elt F) → (⟨S4x2048x2048, .f32⟩ : BufTy).Contents (Elt F) → (⟨S4x2048x2048, .f32⟩ : BufTy).Contents (Elt F)) ]

set_option maxRecDepth 1024 in
/-- @main is that straight line: the two functions' bodies unfolded at their calls, the sequencing
    reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

end Cert.ReferenceIdeal.RefRun

end
-- ==== Proof.RefRun.lean ====
/-
  The reference program's run, read back: every weakly fair execution of its 27 host operations terminates,
  with the result at the named stages composed — the sum of `x` with the table looked up at the positions
  0 … 2047 — and the argument arrays unchanged.
-/
import proofs.«102697_g44573170598537_cont_8to1_c_262_11_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
set_option maxRecDepth 8192 in
/-- What the result buffer holds after the 27 operations, from any contents: the stages composed. Each
    operation's result is read at its own buffer and passed over at every other; what is left differs from
    the composed stages only by the typed references' transports, which are the identity at these literal
    references. (The reduce and the gather stay folded meanwhile: the equation never looks inside them.) -/
theorem out_eq (V : Valuation τ sig (Elt F)) :
    after ops V (main_v4 : DevRef τ sig) = result (V (main_arg0 : DevRef τ sig)) (V (main_arg1 : DevRef τ sig)) := by
  unfold result lookup inRange positions
  after_results_simp
  rfl

/-- No operation writes the batch's buffer. -/
theorem arg0_eq (V : Valuation τ sig (Elt F)) : after ops V (main_arg0 : DevRef τ sig) = V (main_arg0 : DevRef τ sig) := by
  after_results_simp

/-- No operation writes the table's buffer. -/
theorem arg1_eq (V : Valuation τ sig (Elt F)) : after ops V (main_arg1 : DevRef τ sig) = V (main_arg1 : DevRef τ sig) := by
  after_results_simp

/-- On every device, for any float values, from any memory with zero counters: every weakly fair execution
    of @main terminates with the result at `result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.LibTakeRows.lean ====
/-
  Two general facts about host operations, independent of any program.

  * `Host.reduce_andi_of_all_one`: a `stablehlo.reduce` by `and` over one-bit words, started from a 1, is 1
    wherever every operand word is 1 — whatever axes it reduces over.
  * `gather_rows_apply`: the `stablehlo.gather` that `jnp.take(x, idx, axis = 0)` lowers to for a matrix
    `x : [N, C]` and a column of row numbers `idx : [R, 1]` (offset axis 1, collapsed axis 0, start index
    map [0], index vector axis 1, slices 1 × C), read at `(r, c)`: it is `x` at row `idx[r, 0]` — read as a
    signed integer and clamped into 0 … N − 1, as StableHLO clamps every start index — and column `c`.
-/
import Idealize.ShloMosaic.PureOps.Reduce
import Idealize.ShloMosaic.Lib.ValueIdx

noncomputable section

namespace Idealize.ShloMosaic.TakeRows

open Idealize.ShloMosaic Idealize.ShloMosaic.ValueIdx

/-! ## A conjunction of ones -/

/-- A left fold by `and` from 1 over words that are all 1 is 1. -/
theorem foldl_andi_of_all_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    exact ih

/-- A reduce by `and` from an initial 1 over an operand whose words are all 1 is 1 at every result index. -/
theorem Host.reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_of_all_one x hx _

/-! ## Rows of a matrix taken at a column of row numbers -/

section Rows
variable {α : Type}

/-- The dimension numbers of `jnp.take(x, idx, axis = 0)` for `x : [N, C]`, `idx : [R, 1]`, result `[R, C]`; their
    conditions `wf` are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, c)`. -/
abbrev rowsIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, c)`: the operand at row `idx[r, 0]`, read signed and clamped into `[0, N − 1]`, column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (rowsIdx y)).toInt.toNat (N - 1), by omega⟩ ⟨(y 1).val, idx2_lt1 y⟩) := by
  unfold Host.gather
  congr 1
  funext a
  refine Fin.ext ?_
  match a with
  | ⟨0, _⟩ =>
    show (rowsDims N R C wf).start y idx 0 + (rowsDims N R C wf).batchCoord y 0 + (rowsDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    show (rowsDims N R C wf).start y idx 1 + (rowsDims N R C wf).batchCoord y 1 + (rowsDims N R C wf).offCoord y 1 = (y 1).val
    have hs : (rowsDims N R C wf).start y idx 1 = 0 := by
      unfold GatherDims.start
      rw [dif_neg (show (1 : Fin 2) ∉ (rowsDims N R C wf).startIndexMap from (by decide : (1 : Fin 2) ∉ ([0] : List (Fin 2))))]
    rw [hs, GatherDims.batchCoord_eq_zero _ _ _ List.not_mem_nil]
    unfold GatherDims.offCoord
    rw [dif_pos (show (1 : Fin 2) ∈ (rowsDims N R C wf).sKept from
      (GatherDims.mem_sKept _ _).mpr ⟨(by decide : (1 : Fin 2) ∉ ([0] : List (Fin 2))), List.not_mem_nil⟩)]
    simp only [Nat.zero_add]
    rfl

end Rows

end Idealize.ShloMosaic.TakeRows

end
-- ==== Proof.RefValue.lean ====
/-
  The reference's result, read at an entry (b, s, d): it is `x[b, s, d] + pe[s, d]`.

  The lookup is given the positions 0 … 2047 themselves. As a signed 32-bit word a position `s` below 2048 is
  not negative, so the wrap by 2048 leaves it; it lies in 0 … 2047, so the range mask is 1 at every position
  and the NaN pattern is never chosen; and the gather, which clamps a start row into 0 … 2047, reads row `s`
  itself. So the looked-up table is `pe`, its copy in batch member `b` is `pe` again, and the sum with `x` is
  the specification's.
-/
import proofs.«102697_g44573170598537_cont_8to1_c_262_11_alg».proof.Proof.RefOps
import proofs.«102697_g44573170598537_cont_8to1_c_262_11_alg».proof.Proof.LibTakeRows
import proofs.«102697_g44573170598537_cont_8to1_c_262_11_alg».proof.Proof.Spec
import Idealize.ShloMosaic.Lib.Affine
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.TakeRows Cert.PosEnc

variable {F : FTy → Type} [FloatOps F]

/-! ## A position as a signed word -/

/-- A position below 2048, written as a 32-bit word and read back signed, is itself. -/
theorem toInt_position (r : Nat) (hr : r < 2048) : (BitVec.ofNat 32 r).toInt = (r : Int) := by
  have h1 : (BitVec.ofNat 32 r).toNat = r := by
    rw [BitVec.toNat_ofNat]; exact Nat.mod_eq_of_lt (by omega)
  rw [BitVec.toInt_eq_toNat_cond, h1, if_pos (by omega)]

/-! ## The stages at an index -/

/-- The position the gather receives for row `r` is `r`: it is not negative, so it is not wrapped. -/
theorem positions_apply (k : S2048x1.Idx) : positions k = BitVec.ofNat 32 (k 0).val := by
  have hk : (k 0).val < 2048 := idx2_lt0 k
  unfold positions
  refine (broadcastInDim_apply _ _ _ k (ix1 ⟨(k 0).val, hk⟩)
    (fun a => match a with | ⟨0, _⟩ => by show (k 0).val = if (2048 : Nat) = 1 then 0 else (k 0).val; rw [if_neg (by decide)])).trans ?_
  show Scalar.select (IntOp.cmpi .slt (BitVec.ofNat 32 (k 0).val) 0#32) (IntOp.addi (BitVec.ofNat 32 (k 0).val) 2048#32)
    (BitVec.ofNat 32 (k 0).val) = _
  have hneg : ¬ IntOp.cmpi .slt (BitVec.ofNat 32 (k 0).val) 0#32 = 1#1 := by
    rw [IntOp.cmpi_slt, toInt_position _ hk]
    show ¬ ((k 0).val : Int) < 0
    omega
  rw [eq_zero_of_ne_one hneg, select_zero]

/-- Every position is in range: the mask is 1 everywhere. -/
theorem inRange_apply (j : S2048.Idx) : inRange j = 1#1 := by
  unfold inRange
  refine Host.reduce_andi_of_all_one _ _ _ _ j (fun k => ?_) (fun _ => rfl)
  have hk : (k 0).val < 2048 := idx2_lt0 k
  show IntOp.andi (IntOp.cmpi .sge (positions k) 0#32) (IntOp.cmpi .sle (positions k) 2047#32) = 1#1
  have h0 : IntOp.cmpi .sge (positions k) 0#32 = 1#1 := by
    rw [IntOp.cmpi_sge, positions_apply, toInt_position _ hk]
    show (0 : Int) ≤ ((k 0).val : Int)
    omega
  have h1 : IntOp.cmpi .sle (positions k) 2047#32 = 1#1 := by
    rw [IntOp.cmpi_sle, positions_apply, toInt_position _ hk]
    show ((k 0).val : Int) ≤ 2047
    omega
  rw [h0, h1]
  rfl

/-- The looked-up table is the table: row `s` is read at position `s`, which is in range. -/
theorem lookup_apply (pe : FVec F S2048x2048 .f32) (k : S2048x2048.Idx) : lookup pe k = pe k := by
  have hk0 : (k 0).val < 2048 := idx2_lt0 k
  have hk1 : (k 1).val < 2048 := idx2_lt1 k
  unfold lookup
  rw [select_apply]
  have hm : broadcastInDim S2048x2048 ![0] bcast_S2048_S2048x2048_0 inRange k = 1#1 :=
    (broadcastInDim_apply _ _ _ k (ix1 ⟨(k 0).val, hk0⟩)
      (fun a => match a with | ⟨0, _⟩ => by show (k 0).val = if (2048 : Nat) = 1 then 0 else (k 0).val; rw [if_neg (by decide)])).trans
      (inRange_apply _)
  rw [hm, select_one]
  show Host.gather (rowsDims 2048 2048 2048 gather_S2048x2048_S2048x1_S2048x2048_1_0_n_n_0_1_12048_wf) pe positions k = pe k
  refine (gather_rows_apply (by decide) _ pe positions k).trans ?_
  congr 1
  funext a
  refine Fin.ext ?_
  match a with
  | ⟨0, _⟩ =>
    show min (positions (rowsIdx k)).toInt.toNat (2048 - 1) = (k 0).val
    rw [positions_apply, toInt_position _ hk0]
    show min ((k 0).val : Int).toNat (2048 - 1) = (k 0).val
    rw [Int.toNat_natCast]
    omega
  | ⟨1, _⟩ => rfl

/-! ## The result -/

/-- THE REFERENCE'S RESULT IS THE SPECIFICATION: entry (b, s, d) is `x[b, s, d] + pe[s, d]`. -/
theorem result_eq (x : FVec F S4x2048x2048 .f32) (pe : FVec F S2048x2048 .f32) : result x pe = addRows x pe := by
  funext i
  have hi0 : (i 0).val < 4 := (i 0).isLt
  have hi1 : (i 1).val < 2048 := (i 1).isLt
  have hi2 : (i 2).val < 2048 := (i 2).isLt
  show FloatOps.addf (x i) (broadcastInDim S4x2048x2048 ![0, 1, 2] bcast_S1x2048x2048_S4x2048x2048_0_1_2
      (broadcastInDim S1x2048x2048 ![1, 2] bcast_S2048x2048_S1x2048x2048_1_2 (lookup pe)) i)
    = FloatOps.addf (x i) (pe (rowOf i))
  congr 1
  refine (broadcastInDim_apply _ _ _ i (ix3 (⟨0, Nat.one_pos⟩ : Fin 1) (⟨(i 1).val, hi1⟩ : Fin 2048) (⟨(i 2).val, hi2⟩ : Fin 2048))
    (fun a => match a with
      | ⟨0, _⟩ => by show 0 = if (1 : Nat) = 1 then 0 else (i 0).val; rw [if_pos rfl]
      | ⟨1, _⟩ => by show (i 1).val = if (2048 : Nat) = 1 then 0 else (i 1).val; rw [if_neg (by decide)]
      | ⟨2, _⟩ => by show (i 2).val = if (2048 : Nat) = 1 then 0 else (i 2).val; rw [if_neg (by decide)])).trans ?_
  refine (broadcastInDim_apply _ _ _ _ (rowOf i)
    (fun a => match a with
      | ⟨0, _⟩ => by show (i 1).val = if (2048 : Nat) = 1 then 0 else (i 1).val; rw [if_neg (by decide)]
      | ⟨1, _⟩ => by show (i 2).val = if (2048 : Nat) = 1 then 0 else (i 2).val; rw [if_neg (by decide)])).trans ?_
  exact lookup_apply pe (rowOf i)

end Cert.ReferenceIdeal.RefValue

end
-- ==== Proof.lean ====
/-
  Adding positional encodings: a kernel against its jnp reference, over the extended reals.

  Both programs take a batch `x` of four 2048 × 2048 matrices and a 2048 × 2048 table `pe`, and both return
  `x[b, s, d] + pe[s, d]`. The kernel walks eight blocks of 256 positions, adding the table's block to each
  batch member's block (Proof/KernelValue.lean: the eight blocks tile the result, so the result array is that
  function). The reference looks the table up at the positions 0 … 2047 — a gather guarded by a range mask,
  with a NaN pattern for positions out of range — and adds the looked-up table to every member
  (Proof/RefRun.lean: its run; Proof/RefValue.lean: every position is in range and is read at itself, so the
  looked-up table is the table). The two results are therefore one function of the arguments, with the SAME
  sum at every entry: no law of arithmetic is used, and the inputs' finiteness is never needed.

  The idealization rewrote nothing in the kernel, so `preserves` has no conjunct. The kernels' frames are the
  generated ones; the reference's frame is its run with the result dropped.
-/
import proofs.«102697_g44573170598537_cont_8to1_c_262_11_alg».proof.Defs
import proofs.«102697_g44573170598537_cont_8to1_c_262_11_alg».proof.Proof.Gen.Kernel
import proofs.«102697_g44573170598537_cont_8to1_c_262_11_alg».proof.Proof.Gen.Kernel.Skeleton
import proofs.«102697_g44573170598537_cont_8to1_c_262_11_alg».proof.Proof.Gen.Kernel.Launch
import proofs.«102697_g44573170598537_cont_8to1_c_262_11_alg».proof.Proof.Gen.Kernel.Points
import proofs.«102697_g44573170598537_cont_8to1_c_262_11_alg».proof.Proof.Gen.Kernel.Frame
import proofs.«102697_g44573170598537_cont_8to1_c_262_11_alg».proof.Proof.Gen.KernelIdeal
import proofs.«102697_g44573170598537_cont_8to1_c_262_11_alg».proof.Proof.Gen.KernelIdeal.Skeleton
import proofs.«102697_g44573170598537_cont_8to1_c_262_11_alg».proof.Proof.Gen.KernelIdeal.Launch
import proofs.«102697_g44573170598537_cont_8to1_c_262_11_alg».proof.Proof.Gen.KernelIdeal.Points
import proofs.«102697_g44573170598537_cont_8to1_c_262_11_alg».proof.Proof.Gen.KernelIdeal.Frame
import proofs.«102697_g44573170598537_cont_8to1_c_262_11_alg».proof.Proof.Gen.KernelIdeal.Value
import proofs.«102697_g44573170598537_cont_8to1_c_262_11_alg».proof.Proof.Gen.ReferenceIdeal
import proofs.«102697_g44573170598537_cont_8to1_c_262_11_alg».proof.Proof.Gen.Pre_finite_inputs
import proofs.«102697_g44573170598537_cont_8to1_c_262_11_alg».proof.Proof.Spec
import proofs.«102697_g44573170598537_cont_8to1_c_262_11_alg».proof.Proof.KernelValue
import proofs.«102697_g44573170598537_cont_8to1_c_262_11_alg».proof.Proof.RefRun
import proofs.«102697_g44573170598537_cont_8to1_c_262_11_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation of the kernel. -/
theorem preserves : Cert.preserves_Kernel_KernelIdeal := trivial

/-- From arguments that agree, the kernel's result array ends at `x[b, s, d] + pe[s, d]` (its eight blocks) and
    the reference's at the sum of `x` with the table looked up at 0 … 2047, which is the same array. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
